-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S64x16 .f32) (main_arg7 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg6
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S50000x64 .f32) (main_arg1 : IVec S800000 32) (main_arg2 : IVec S800000 32) (main_arg3 : FVec F S64x64 .f32) (main_arg4 : FVec F S64x64 .f32) (main_arg5 : FVec F S64 .f32) (main_arg6 : FVec F S64x16 .f32) (main_arg7 : FVec F S16 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S1x16 : Shape := ⟨2, ![1, 16]⟩
abbrev S50000x16 : Shape := ⟨2, ![50000, 16]⟩
abbrev S2000x64 : Shape := ⟨2, ![2000, 64]⟩
abbrev S2000x16 : Shape := ⟨2, ![2000, 16]⟩

abbrev nBuf : Space → Nat
  | .hbm => 36
  | .vmem => 11
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S_, .f32⟩
  | .hbm, ⟨18, _⟩ => ⟨S50000x64, .f32⟩
  | .hbm, ⟨19, _⟩ => ⟨S800000x1, .i32⟩
  | .hbm, ⟨20, _⟩ => ⟨S50000x64, .f32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x64, .f32⟩
  | .hbm, ⟨32, _⟩ => ⟨S50000x64, .f32⟩
  | .hbm, ⟨33, _⟩ => ⟨S1x64, .f32⟩
  | .hbm, ⟨34, _⟩ => ⟨S1x16, .f32⟩
  | .hbm, ⟨35, _⟩ => ⟨S50000x16, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x16, .f32⟩
  | .local _ .vmem, ⟨8, _⟩ => ⟨S1x16, .f32⟩
  | .local _ .vmem, ⟨9, _⟩ => ⟨S2000x16, .f32⟩
  | .local _ .vmem, ⟨10, _⟩ => ⟨S2000x16, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S64_S1x64 : S64.ShapeCasts S1x64
  shapeCasts_S16_S1x16 : S16.ShapeCasts S1x16
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S2000x64_S64x64_S2000x64_1_0_0_1_n_n_wf : DotDims.WF S2000x64 S64x64 S2000x64 [1] [0] [0] [1] [] []
  dot_S2000x64_S64x16_S2000x16_1_0_0_1_n_n_wf : DotDims.WF S2000x64 S64x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x16.size a ≤ S64x16.size a
  hwx0_5 : ∀ i : grid0.Coords, EltTy.bits .f32 = 32 ∨ (Rect.block (s := S64x16) S64x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x16.size a ≤ S50000x16.size a
  hwx0_7 : ∀ i : grid0.Coords, EltTy.bits .f32 = 32 ∨ (Rect.block (s := S50000x16) S2000x16.size (cc0_transform_7 i) (hinb0_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x16_S2000x16_1_0_0_1_n_n : DotDims S2000x64 S64x16 S2000x16 where
  lhsContracting := [1]
  rhsContracting := [0]
  lhsNonContracting := [0]
  rhsNonContracting := [1]
  lhsBatch := []
  rhsBatch := []
  wf := dot_S2000x64_S64x16_S2000x16_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S2000x16.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x16 : Shape := ⟨2, ![64, 16]⟩
abbrev S16 : Shape := ⟨1, ![16]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S1x64 : Shape := ⟨2, ![1, 64]⟩
abbrev S50000x16 : Shape := ⟨2, ![50000, 16]⟩
abbrev S1x16 : Shape := ⟨2, ![1, 16]⟩

abbrev nBuf : Space → Nat
  | .hbm => 46
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x16, .f32⟩
  | .hbm, ⟨7, _⟩ => ⟨S16, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x64, .f32⟩
  | .hbm, ⟨17, _⟩ => ⟨S_, .f32⟩
  | .hbm, ⟨18, _⟩ => ⟨S50000x64, .f32⟩
  | .hbm, ⟨19, _⟩ => ⟨S800000x1, .i32⟩
  | .hbm, ⟨20, _⟩ => ⟨S50000x64, .f32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x64, .f32⟩
  | .hbm, ⟨32, _⟩ => ⟨S50000x64, .f32⟩
  | .hbm, ⟨33, _⟩ => ⟨S50000x64, .f32⟩
  | .hbm, ⟨34, _⟩ => ⟨S50000x64, .f32⟩
  | .hbm, ⟨35, _⟩ => ⟨S50000x64, .f32⟩
  | .hbm, ⟨36, _⟩ => ⟨S1x64, .f32⟩
  | .hbm, ⟨37, _⟩ => ⟨S50000x64, .f32⟩
  | .hbm, ⟨38, _⟩ => ⟨S50000x64, .f32⟩
  | .hbm, ⟨39, _⟩ => ⟨S_, .f32⟩
  | .hbm, ⟨40, _⟩ => ⟨S50000x64, .f32⟩
  | .hbm, ⟨41, _⟩ => ⟨S50000x64, .f32⟩
  | .hbm, ⟨42, _⟩ => ⟨S50000x16, .f32⟩
  | .hbm, ⟨43, _⟩ => ⟨S1x16, .f32⟩
  | .hbm, ⟨44, _⟩ => ⟨S50000x16, .f32⟩
  | .hbm, ⟨45, _⟩ => ⟨S50000x16, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_cst : Ref sig .tc := ⟨.hbm, 39, rfl⟩
abbrev main_call0_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  dot_S50000x64_S64x16_S50000x16_1_0_0_1_n_n_wf : DotDims.WF S50000x64 S64x16 S50000x16 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x16_S50000x16_1_0_0_1_n_n : DotDims S50000x64 S64x16 S50000x16 where
  lhsContracting := [1]
  rhsContracting := [0]
  lhsNonContracting := [0]
  rhsNonContracting := [1]
  lhsBatch := []
  rhsBatch := []
  wf := dot_S50000x64_S64x16_S50000x16_1_0_0_1_n_n_wf

class Facts : Prop extends Facts₀ where

variable [Facts]
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.Spec.lean ====
/-
  The dense part of a mean-aggregating graph layer, one node at a time.

  A node has a feature row `xr` and a neighbourhood-mean row `hr`, both of length 64. The hidden row is
  `max (xr · Wself + hr · Wneigh + b, 0)` (64 entries), and the output row is `hidden · Wfc + bfc` (16 entries).
  Every product is the plain sum over the contracted coordinate, on the extended reals; nothing is rounded, so the
  order of accumulation and the number formats of the operands play no part.

  The value of the layer at node `a` depends on row `a` of the two feature matrices only. This is what lets a
  computation cut the nodes into blocks of rows and treat each block by itself.
-/
import Idealize.ShloMosaic.PureOps.Ideal
import Idealize.ShloMosaic.Lib.ValueIdx

noncomputable section

open scoped BigOperators

namespace Cert.SageMlp

open Idealize.ShloMosaic Idealize.ShloMosaic.ValueIdx

/-- Entry `k` of a node's hidden row: the two products summed, the bias added, clamped below at zero. -/
def hiddenRow (xr hr : Fin 64 → EReal) (Wself Wneigh : (⟨2, ![64, 64]⟩ : Shape).Idx → EReal) (b : Fin 64 → EReal)
    (k : Fin 64) : EReal :=
  max (((∑ j : Fin 64, xr j * Wself (ix2 j k)) + ∑ j : Fin 64, hr j * Wneigh (ix2 j k)) + b k)
    (Ideal.ofBits .f32 0x00000000#32)

/-- Entry `q` of a node's output row: the hidden row times the last weight matrix, the last bias added. -/
def outRow (xr hr : Fin 64 → EReal) (Wself Wneigh : (⟨2, ![64, 64]⟩ : Shape).Idx → EReal) (b : Fin 64 → EReal)
    (Wfc : (⟨2, ![64, 16]⟩ : Shape).Idx → EReal) (bfc : Fin 16 → EReal) (q : Fin 16) : EReal :=
  (∑ k : Fin 64, hiddenRow xr hr Wself Wneigh b k * Wfc (ix2 k q)) + bfc q

/-- The layer over `n` nodes: the output matrix, entry by entry, from the two `n × 64` feature matrices. -/
def layer {n : ℕ} (X H : (⟨2, ![n, 64]⟩ : Shape).Idx → EReal) (Wself Wneigh : (⟨2, ![64, 64]⟩ : Shape).Idx → EReal)
    (b : Fin 64 → EReal) (Wfc : (⟨2, ![64, 16]⟩ : Shape).Idx → EReal) (bfc : Fin 16 → EReal) :
    (⟨2, ![n, 16]⟩ : Shape).Idx → EReal :=
  fun i => outRow (fun j => X (ix2 (i 0) j)) (fun j => H (ix2 (i 0) j)) Wself Wneigh b Wfc bfc (i 1)

/-- The layer at `(a, q)` is node `a`'s output row at `q`. -/
theorem layer_ix2 {n : ℕ} (X H : (⟨2, ![n, 64]⟩ : Shape).Idx → EReal) (Wself Wneigh : (⟨2, ![64, 64]⟩ : Shape).Idx → EReal)
    (b : Fin 64 → EReal) (Wfc : (⟨2, ![64, 16]⟩ : Shape).Idx → EReal) (bfc : Fin 16 → EReal) (a : Fin n) (q : Fin 16) :
    layer X H Wself Wneigh b Wfc bfc (ix2 a q)
      = outRow (fun j => X (ix2 a j)) (fun j => H (ix2 a j)) Wself Wneigh b Wfc bfc q := rfl

end Cert.SageMlp

end
-- ==== Proof.KernelRow.lean ====
/-
  What the kernel body stores, entry by entry.

  The body loads a block of 2000 feature rows and the matching 2000 neighbourhood-mean rows, the three weight
  matrices whole, and the two biases as one-row matrices. It forms the two products into zero tiles, adds them and
  the bias row (repeated down the block), clamps at zero, multiplies by the last weight matrix into a zero tile and
  adds the last bias row. On the extended reals a change of number format is the identity and a product into a zero
  tile is the plain sum over the contracted coordinate, so entry `(p, q)` of the stored block is the output row of
  the layer at the block's row `p`, read at `q`.
-/
import proofs.«143916_j26671746908236_1_alg».proof.Proof.Gen.KernelIdeal.Skeleton
import proofs.«143916_j26671746908236_1_alg».proof.Proof.LibPlainDot
import proofs.«143916_j26671746908236_1_alg».proof.Proof.Spec
import Idealize.ShloMosaic.Lib.Pipeline.Value
import Idealize.ShloMosaic.Lib.ValueIdx
import Idealize.ShloMosaic.Lib.ValueLayout

noncomputable section

open scoped BigOperators

namespace Cert.KernelIdeal.Body

open Cert.KernelIdeal Cert.KernelIdeal.Gen Idealize.ShloMosaic Idealize.ShloMosaic.ValueIdx Cert.SageMlp

/-- The two shapes of product the body forms are the plain ones: rows times columns over one shared axis. -/
theorem dims_hidden : dot_S2000x64_S64x64_S2000x64_1_0_0_1_n_n = DotDims.plain 2000 64 64 := rfl
theorem dims_out : dot_S2000x64_S64x16_S2000x16_1_0_0_1_n_n = DotDims.plain 2000 64 16 := rfl

/-- Entry `(p, q)` of the block the body stores is the layer's output row for the block's row `p`, at `q`. -/
theorem pay_apply (x0 x1 : Vec Ideal S2000x64 .f32) (x2 x3 : Vec Ideal S64x64 .f32) (x4 : Vec Ideal S1x64 .f32)
    (x5 : Vec Ideal S64x16 .f32) (x6 : Vec Ideal S1x16 .f32) (p : Fin 2000) (q : Fin 16) :
    k0_pay1 (F := Ideal) x0 x1 x2 x3 x4 x5 x6 (ix2 p q)
      = outRow (fun j => x0 (ix2 p j)) (fun j => x1 (ix2 p j)) x2 x3 (fun k => x4 (ix2 (0 : Fin 1) k)) x5
          (fun r => x6 (ix2 (0 : Fin 1) r)) q := by
  unfold k0_pay1
  simp only [matmul]
  rw [addf_apply, dims_hidden, dims_out, Cert.LibPlainDot.matmul_plain_zero_apply, shapeCast_self, shapeCast_self, shapeCast_self,
    broadcastTo_1b_ab_apply]
  unfold outRow
  refine congrArg (· + x6 (ix2 (0 : Fin 1) q)) (Finset.sum_congr rfl fun k _ => ?_)
  rw [truncf_apply, truncf_apply, maximumf_apply, addf_apply, addf_apply, broadcastTo_1b_ab_apply,
    Cert.LibPlainDot.matmul_plain_zero_apply, Cert.LibPlainDot.matmul_plain_zero_apply]
  rfl

/-- The same with the block's rows named as rows of two whole feature matrices: if the block starts at row `s` of
    `X` and of `H`, entry `y` of the stored block is the layer of `X` and `H` at row `s + y 0`, column `y 1`. -/
theorem pay_block (s : ℕ) (x0 x1 : Vec Ideal S2000x64 .f32) (x2 x3 : Vec Ideal S64x64 .f32) (x4 : Vec Ideal S1x64 .f32)
    (x5 : Vec Ideal S64x16 .f32) (x6 : Vec Ideal S1x16 .f32) (X H : (⟨2, ![50000, 64]⟩ : Shape).Idx → EReal)
    (hx : ∀ (p : Fin 2000) (j : Fin 64) (a : Fin 50000), a.val = s + p.val → x0 (ix2 p j) = X (ix2 a j))
    (hh : ∀ (p : Fin 2000) (j : Fin 64) (a : Fin 50000), a.val = s + p.val → x1 (ix2 p j) = H (ix2 a j))
    (y : (⟨2, ![2000, 16]⟩ : Shape).Idx) (i : (⟨2, ![50000, 16]⟩ : Shape).Idx)
    (h0 : (i 0).val = s + (y 0).val) (h1 : (i 1).val = (y 1).val) :
    k0_pay1 (F := Ideal) x0 x1 x2 x3 x4 x5 x6 y
      = layer X H x2 x3 (fun k => x4 (ix2 (0 : Fin 1) k)) x5 (fun r => x6 (ix2 (0 : Fin 1) r)) i := by
  obtain ⟨p, q, rfl⟩ : ∃ (p : Fin 2000) (q : Fin 16), y = ix2 p q := ⟨y 0, y 1, eq_ix2 y⟩
  obtain ⟨a, q', rfl⟩ : ∃ (a : Fin 50000) (q' : Fin 16), i = ix2 a q' := ⟨i 0, i 1, eq_ix2 i⟩
  obtain rfl : q' = q := Fin.ext h1
  rw [pay_apply, layer_ix2, funext fun j => hx p j a h0, funext fun j => hh p j a h0]

end Cert.KernelIdeal.Body

end
-- ==== Proof.HostPrefix.lean ====
/-
  What the host leaves for the kernel to read.

  Before the kernel is launched the host gathers the feature rows of the edges' source nodes, adds each into its
  destination node's row, counts the edges arriving at each node, and divides each summed row by the count (or by one,
  for a node no edge reaches): the neighbourhood mean. It also lays the two bias vectors out as one-row matrices.
  The kernel's second, fifth and seventh operands are these three arrays; its other operands are argument arrays the
  host does not touch.
-/
import proofs.«143916_j26671746908236_1_alg».proof.Proof.Gen.KernelIdeal.Frame
import Idealize.ShloMosaic.Lib.StableHlo.Run
import Idealize.ShloMosaic.Lib.ValueLayout

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The neighbourhood mean as the host computes it from the features `x0`, the edges' sources `x1` and their
    destinations `x2`. -/
def hostMean (x0 : (⟨S50000x64, .f32⟩ : BufTy).Contents (Elt F)) (x1 x2 : (⟨S800000, .i32⟩ : BufTy).Contents (Elt F)) :
    (⟨S50000x64, .f32⟩ : BufTy).Contents (Elt F) :=
  Host.divf (Host.scatterAdd scatter_S50000x64_S800000x1_S800000x64_1_0_0_1 (broadcastInDim S50000x64 ![] bcast_S_S50000x64 (constant S_ .f32 0x00000000#32)) (broadcastInDim S800000x1 ![0] bcast_S800000_S800000x1_0 x2) (Host.gather gather_S50000x64_S800000x1_S800000x64_1_0_n_n_0_1_164 x0 (broadcastInDim S800000x1 ![0] bcast_S800000_S800000x1_0 (select (cmpi .slt x1 (broadcastInDim S800000 ![] bcast_S_S800000 (constantI S_ 32 0#32))) (addi x1 (broadcastInDim S800000 ![] bcast_S_S800000 (constantI S_ 32 50000#32))) x1)))) (broadcastInDim S50000x64 ![0, 1] bcast_S50000x1_S50000x64_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 x2) (broadcastInDim S800000 ![] bcast_S_S800000 (constant S_ .f32 0x3F800000#32))) (broadcastInDim S50000 ![] bcast_S_S50000 (constant S_ .f32 0x3F800000#32)))))

variable (m : (ℓ : Loc nD τ sig) → Buf (Elt F) ℓ)

set_option maxHeartbeats 2000000 in
/-- The kernel's second operand is the neighbourhood mean of the argument arrays. -/
theorem V_mean (c : Dev nD) :
    V m c main_v18 = hostMean (m ((c.tc : Thread nD τ).loc main_arg0)) (m ((c.tc : Thread nD τ).loc main_arg1))
      (m ((c.tc : Thread nD τ).loc main_arg2)) := by
  unfold hostMean
  dsimp only [V, hostOps0]
  after_results_simp

/-- The kernel's fifth operand is the first bias vector as a one-row matrix. -/
theorem V_bias (c : Dev nD) :
    (V m c main_v19 : S1x64.Idx → Elt F .f32) = shapeCast S1x64 (m ((c.tc : Thread nD τ).loc main_arg5)) shapeCasts_S64_S1x64 := by
  dsimp only [V, hostOps0]
  after_results
  rfl

/-- The kernel's seventh operand is the last bias vector as a one-row matrix. -/
theorem V_bias_fc (c : Dev nD) :
    (V m c main_v20 : S1x16.Idx → Elt F .f32) = shapeCast S1x16 (m ((c.tc : Thread nD τ).loc main_arg7)) shapeCasts_S16_S1x16 := by
  dsimp only [V, hostOps0]
  after_results
  rfl

end Cert.KernelIdeal.Prefix

end
-- ==== Proof.KernelArray.lean ====
/-
  From blocks of rows to the whole result.

  The grid has 25 points. At point `t` the two feature windows hold rows `2000 t … 2000 t + 1999` of the features and of
  the neighbourhood mean, the five other input windows hold their whole arrays, and the output window writes back rows
  `2000 t … 2000 t + 1999` of the result. Since a node's output row depends on that node's two rows only, what point `t`
  writes back is block `t` of the layer of the whole arrays; the 25 blocks tile the 50000 rows, so the result array ends
  holding the layer, entry by entry.
-/
import proofs.«143916_j26671746908236_1_alg».proof.Proof.Gen.KernelIdeal.Value
import proofs.«143916_j26671746908236_1_alg».proof.Proof.KernelRow
import proofs.«143916_j26671746908236_1_alg».proof.Proof.HostPrefix
import Idealize.ShloMosaic.Lib.Pipeline.Value
import Idealize.ShloMosaic.Lib.ValueLayout

noncomputable section

open scoped BigOperators

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.SageMlp Cert.KernelIdeal.Body Cert.KernelIdeal.Prefix

variable (m : (ℓ : Loc nD τ sig) → Buf (Elt Ideal) ℓ) (ρ : Dev nD → PrngReg)

theorem hz : (![0, 0] : Fin 2 → Nat) = fun _ => 0 := funext fun a => by fin_cases a <;> rfl

/-- The block index of every window at every grid point: the two feature windows and the output window move down
    the rows with the point, the others stay at the origin. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- The feature window's block at point `t` is rows `2000 t …` of the features. -/
theorem iblk0_apply (c : Dev nD) (t : Fin cfg0.N) (x : S2000x64.Idx) (k : S50000x64.Idx)
    (hk0 : (k 0).val = 2000 * t.val + (x 0).val) (hk1 : (k 1).val = (x 1).val) :
    (iblk m c 0 t : Vec Ideal S2000x64 .f32) x = (V m c main_arg0 : S50000x64.Idx → Elt Ideal .f32) k := by
  obtain ⟨⟨e0, e1⟩, -⟩ := idx_facts t
  unfold iblk
  rw [View.read_apply]
  show V m c main_arg0 _ = V m c main_arg0 _
  congr 1
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 64 + 1 * (x 1).val = (k 1).val; rw [e1, hk1]; omega

/-- The array indices of the mean window's block at point `t`: rows `2000 t …`. -/
theorem emb1 (t : Fin cfg0.N) (x : S2000x64.Idx) (k : S50000x64.Idx)
    (hk0 : (k 0).val = 2000 * t.val + (x 0).val) (hk1 : (k 1).val = (x 1).val) :
    ((cfg0.win 1).blk t).view.emb x = k := by
  obtain ⟨-, ⟨e0, e1⟩, -⟩ := idx_facts t
  funext a
  apply Fin.ext
  match a with
  | ⟨0, _⟩ => show win0_1.index t (0 : Fin 2) * 2000 + 1 * (x 0).val = (k 0).val; rw [e0, hk0]; omega
  | ⟨1, _⟩ => show win0_1.index t (1 : Fin 2) * 64 + 1 * (x 1).val = (k 1).val; rw [e1, hk1]; omega

/-- Reading an array through the mean window's block at point `t` reads the array at the block's indices. -/
theorem read1 (c : Dev nD) (t : Fin cfg0.N) (x : S2000x64.Idx)
    (A : Buf (Elt Ideal) ((c.tc : Thread nD τ).loc (Pipeline.arrRef spec0 1))) :
    ((cfg0.win 1).blk t).view.read (Elt Ideal) A x = A (((cfg0.win 1).blk t).view.emb x) := rfl

/-- The mean window's block at point `t` is rows `2000 t …` of the array the window reads, the neighbourhood mean. -/
theorem iblk1_apply (c : Dev nD) (t : Fin cfg0.N) (x : S2000x64.Idx) (k : S50000x64.Idx)
    (hk0 : (k 0).val = 2000 * t.val + (x 0).val) (hk1 : (k 1).val = (x 1).val) :
    (iblk m c 1 t : Vec Ideal S2000x64 .f32) x
      = (V m c (Pipeline.arrRef spec0 1) : S50000x64.Idx → Elt Ideal .f32) k := by
  unfold iblk
  generalize V m c (Pipeline.arrRef spec0 1) = A
  rw [read1 c t x A, emb1 t x k hk0 hk1]

/-- Each of the five other input windows holds its whole array at every point. -/
theorem iblk2_eq (c : Dev nD) (t : Fin cfg0.N) :
    (iblk m c 2 t : Vec Ideal S64x64 .f32) = (V m c main_arg3 : S64x64.Idx → Elt Ideal .f32) := by
  obtain ⟨-, -, ⟨e0, e1⟩, -⟩ := idx_facts t
  funext x
  unfold iblk
  rw [View.read_apply]
  show V m c main_arg3 _ = V m c main_arg3 x
  congr 1
  funext a
  apply Fin.ext
  match a with
  | ⟨0, _⟩ => show win0_2.index t (0 : Fin 2) * 64 + 1 * (x 0).val = (x 0).val; rw [e0]; omega
  | ⟨1, _⟩ => show win0_2.index t (1 : Fin 2) * 64 + 1 * (x 1).val = (x 1).val; rw [e1]; omega

theorem iblk3_eq (c : Dev nD) (t : Fin cfg0.N) :
    (iblk m c 3 t : Vec Ideal S64x64 .f32) = (V m c main_arg4 : S64x64.Idx → Elt Ideal .f32) := by
  obtain ⟨-, -, -, ⟨e0, e1⟩, -⟩ := idx_facts t
  funext x
  unfold iblk
  rw [View.read_apply]
  show V m c main_arg4 _ = V m c main_arg4 x
  congr 1
  funext a
  apply Fin.ext
  match a with
  | ⟨0, _⟩ => show win0_3.index t (0 : Fin 2) * 64 + 1 * (x 0).val = (x 0).val; rw [e0]; omega
  | ⟨1, _⟩ => show win0_3.index t (1 : Fin 2) * 64 + 1 * (x 1).val = (x 1).val; rw [e1]; omega

theorem iblk4_eq (c : Dev nD) (t : Fin cfg0.N) :
    (iblk m c 4 t : Vec Ideal S1x64 .f32) = (V m c main_v19 : S1x64.Idx → Elt Ideal .f32) := by
  obtain ⟨-, -, -, -, ⟨e0, e1⟩, -⟩ := idx_facts t
  funext x
  unfold iblk
  rw [View.read_apply]
  show V m c main_v19 _ = V m c main_v19 x
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 64 + 1 * (x 1).val = (x 1).val; rw [e1]; omega

theorem iblk5_eq (c : Dev nD) (t : Fin cfg0.N) :
    (iblk m c 5 t : Vec Ideal S64x16 .f32) = (V m c main_arg6 : S64x16.Idx → Elt Ideal .f32) := by
  obtain ⟨-, -, -, -, -, ⟨e0, e1⟩, -⟩ := idx_facts t
  funext x
  unfold iblk
  rw [View.read_apply]
  show V m c main_arg6 _ = V m c main_arg6 x
  congr 1
  funext a
  apply Fin.ext
  match a with
  | ⟨0, _⟩ => show win0_5.index t (0 : Fin 2) * 64 + 1 * (x 0).val = (x 0).val; rw [e0]; omega
  | ⟨1, _⟩ => show win0_5.index t (1 : Fin 2) * 16 + 1 * (x 1).val = (x 1).val; rw [e1]; omega

theorem iblk6_eq (c : Dev nD) (t : Fin cfg0.N) :
    (iblk m c 6 t : Vec Ideal S1x16 .f32) = (V m c main_v20 : S1x16.Idx → Elt Ideal .f32) := by
  obtain ⟨-, -, -, -, -, -, ⟨e0, e1⟩, -⟩ := idx_facts t
  funext x
  unfold iblk
  rw [View.read_apply]
  show V m c main_v20 _ = V m c main_v20 x
  congr 1
  funext a
  apply Fin.ext
  match a with
  | ⟨0, _⟩ => show win0_6.index t (0 : Fin 2) * 1 + 1 * (x 0).val = (x 0).val; rw [e0]; omega
  | ⟨1, _⟩ => show win0_6.index t (1 : Fin 2) * 16 + 1 * (x 1).val = (x 1).val; rw [e1]; omega

/-- The layer of the arrays as the kernel finds them: the features, the neighbourhood mean the host left, the weights
    and the two one-row bias matrices. -/
def resultV (c : Dev nD) : S50000x16.Idx → Elt Ideal .f32 :=
  layer (n := 50000) (V m c main_arg0 : S50000x64.Idx → Elt Ideal .f32) (V m c (Pipeline.arrRef spec0 1) : S50000x64.Idx → Elt Ideal .f32)
    (V m c main_arg3 : S64x64.Idx → Elt Ideal .f32) (V m c main_arg4 : S64x64.Idx → Elt Ideal .f32)
    (fun k => (V m c main_v19 : S1x64.Idx → Elt Ideal .f32) (ix2 (0 : Fin 1) k))
    (V m c main_arg6 : S64x16.Idx → Elt Ideal .f32)
    (fun r => (V m c main_v20 : S1x16.Idx → Elt Ideal .f32) (ix2 (0 : Fin 1) r))

/-- A block of 2000 rows that agrees, entry by entry, with rows `2000 t …` of a whole array is that array read
    through the output window's block at point `t`. -/
theorem cut_eq_read (t : Fin cfg0.N) (P : Vec Ideal S2000x16 .f32) (G : S50000x16.Idx → Elt Ideal .f32)
    (h : ∀ (y : S2000x16.Idx) (i : S50000x16.Idx), (i 0).val = 2000 * t.val + (y 0).val → (i 1).val = (y 1).val → P y = G i) :
    (cfg0.win 7).cut (grid0.coords t) P = ((cfg0.win 7).blk t).view.read (Elt Ideal) G := by
  obtain ⟨-, -, -, -, -, -, -, ⟨e0, e1⟩⟩ := idx_facts t
  funext y
  show P y = G (((cfg0.win 7).blk t).view.emb y)
  refine h y _ ?_ ?_
  · show win0_7.index t (0 : Fin 2) * 2000 + 1 * (y 0).val = 2000 * t.val + (y 0).val
    rw [e0]; omega
  · show win0_7.index t (1 : Fin 2) * 16 + 1 * (y 1).val = (y 1).val
    rw [e1]; omega

/-- What the body leaves in the output window at point `t` agrees, entry by entry, with rows `2000 t …` of the layer. -/
theorem out_apply (c : Dev nD) (t : Fin cfg0.N) (y : S2000x16.Idx) (i : S50000x16.Idx)
    (h0 : (i 0).val = 2000 * t.val + (y 0).val) (h1 : (i 1).val = (y 1).val) :
    out0_7 (iblk m c 0 t) (iblk m c 1 t) (iblk m c 2 t) (iblk m c 3 t) (iblk m c 4 t) (iblk m c 5 t) (iblk m c 6 t) y
      = resultV m c i := by
  unfold out0_7
  rw [View.canon_unit_zero hz]
  simp only [View.ld_unit_zero (S := S2000x64) hz, View.ld_unit_zero (S := S64x64) hz, View.ld_unit_zero (S := S1x64) hz,
    View.ld_unit_zero (S := S64x16) hz, View.ld_unit_zero (S := S1x16) hz]
  rw [iblk2_eq m c t, iblk3_eq m c t, iblk4_eq m c t, iblk5_eq m c t, iblk6_eq m c t]
  unfold resultV
  exact pay_block (2000 * t.val) (iblk m c 0 t) (iblk m c 1 t) (V m c main_arg3) (V m c main_arg4) (V m c main_v19)
    (V m c main_arg6) (V m c main_v20) (V m c main_arg0) (V m c (Pipeline.arrRef spec0 1))
    (fun p j a ha => iblk0_apply m c t (ix2 p j) (ix2 a j) ha rfl)
    (fun p j a ha => iblk1_apply m c t (ix2 p j) (ix2 a j) ha rfl) y i h0 h1

/-- What point `t` writes back is block `t` of that layer. -/
theorem flushed_eq (c : Dev nD) (t : Fin cfg0.N) :
    (dats m 0 c).flushed 7 t = ((cfg0.win 7).blk t).view.read (Elt Ideal) (resultV m c) := by
  rw [Cert.KernelIdeal.Value.flushed7]
  exact cut_eq_read t _ (resultV m c) (out_apply m c t)

/-- An index of the result is in point `t`'s block iff each coordinate is in the block's range on its axis. -/
theorem mem_blk (t : Fin cfg0.N) (i : S50000x16.Idx) :
    i ∈ ((cfg0.win 7).blk t).view.set ↔ ∀ a : Fin 2, win0_7.index t a * S2000x16.size a ≤ (i a).val ∧ (i a).val < win0_7.index t a * S2000x16.size a + S2000x16.size a := by
  show i ∈ ((View.whole main_v21).slice (win0_7.rect t)).set ↔ _
  rw [View.set_slice_whole, Rect.mem_set_unit]
  exact Iff.rfl

/-- Every entry of the result lies in some point's block: row `r` is written at point `r / 2000`. -/
theorem covered (i : S50000x16.Idx) :
    ∃ t : Fin cfg0.N, (cfg0.win 7).flush t = true ∧ i ∈ ((cfg0.win 7).blk t).view.set := by
  have hi0 : (i 0).val < 50000 := (i 0).isLt
  have hi1 : (i 1).val < 16 := (i 1).isLt
  have hN : cfg0.N = 25 := N_0
  let t : Fin cfg0.N := ⟨(i 0).val / 2000, by rw [hN]; omega⟩
  obtain ⟨-, -, -, -, -, -, -, ⟨e0, e1⟩⟩ := idx_facts t
  have ht : t.val = (i 0).val / 2000 := rfl
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; rw [e0, ht]; omega
  | ⟨1, _⟩ => show win0_7.index t (1 : Fin 2) * 16 ≤ (i 1).val ∧ (i 1).val < win0_7.index t (1 : Fin 2) * 16 + 16; rw [e1]; omega

/-- The result array after the run is the layer of the arrays as the kernel found them. -/
theorem finalV (c : Dev nD) : (dats m 0 c).arrAt 7 cfg0.N = resultV m c :=
  (dats m 0 c).arrAt_eq_of_cover 7 (resultV m c) (fun t _ => flushed_eq m c t) covered

end Cert.KernelIdeal.Whole

end
-- ==== Proof.KernelRun.lean ====
/-
  The kernel's run, read as one function of the argument arrays.

  The arrays the kernel finds are the argument arrays themselves (features and weights), the neighbourhood mean the
  host formed from the features and the edge lists, and the two bias vectors laid out as one-row matrices. Putting
  these in, the result array after the run is the layer of the features and their neighbourhood mean under the
  argument weights and biases.
-/
import proofs.«143916_j26671746908236_1_alg».proof.Proof.KernelArray

noncomputable section

open scoped BigOperators

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.SageMlp Cert.KernelIdeal.Body Cert.KernelIdeal.Prefix

variable (m : (ℓ : Loc nD τ sig) → Buf (Elt Ideal) ℓ) (ρ : Dev nD → PrngReg)

/-- The layer of the argument arrays: the features, their neighbourhood mean over the edge lists, the weights and the
    biases. -/
def result (c : Dev nD) : S50000x16.Idx → Elt Ideal .f32 :=
  layer (n := 50000) (m ((c.tc : Thread nD τ).loc main_arg0) : S50000x64.Idx → Elt Ideal .f32)
    (hostMean (m ((c.tc : Thread nD τ).loc main_arg0)) (m ((c.tc : Thread nD τ).loc main_arg1))
      (m ((c.tc : Thread nD τ).loc main_arg2)) : S50000x64.Idx → Elt Ideal .f32)
    (m ((c.tc : Thread nD τ).loc main_arg3) : S64x64.Idx → Elt Ideal .f32)
    (m ((c.tc : Thread nD τ).loc main_arg4) : S64x64.Idx → Elt Ideal .f32)
    (fun k => (m ((c.tc : Thread nD τ).loc main_arg5) : S64.Idx → Elt Ideal .f32) (ix1 k))
    (m ((c.tc : Thread nD τ).loc main_arg6) : S64x16.Idx → Elt Ideal .f32)
    (fun r => (m ((c.tc : Thread nD τ).loc main_arg7) : S16.Idx → Elt Ideal .f32) (ix1 r))

/-- The result array after the run is that layer. -/
theorem final (c : Dev nD) : (dats m 0 c).arrAt 7 cfg0.N = result m c := by
  have hmean : V m c (Pipeline.arrRef spec0 1) = hostMean (m ((c.tc : Thread nD τ).loc main_arg0))
      (m ((c.tc : Thread nD τ).loc main_arg1)) (m ((c.tc : Thread nD τ).loc main_arg2)) := V_mean m c
  rw [finalV]
  unfold resultV result
  rw [hmean, V_main_arg0 m c, V_main_arg3 m c, V_main_arg4 m c, V_main_arg6 m c, V_bias m c, V_bias_fc m c]
  simp only [shapeCast_a_1a_apply]

/-- Every execution of the kernel's program ends with the result array at the layer and the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.Whole

end
-- ==== Proof.RefLayer.lean ====
/-
  The reference, entry by entry.

  After it has formed the neighbourhood mean the reference computes the same layer with whole-matrix operations:
  two products of the 50000-row matrices with the first two weight matrices, their sum, the bias repeated down the
  rows, the clamp at zero, the product with the last weight matrix and the last bias repeated down the rows. Read at
  entry `(a, q)` each product is the plain sum over the contracted coordinate and each repeated bias is the bias at the
  column, so the result is the layer's output row for node `a`, at `q`.
-/
import proofs.«143916_j26671746908236_1_alg».proof.Proof.Gen.ReferenceIdeal.Read
import proofs.«143916_j26671746908236_1_alg».proof.Proof.Spec

noncomputable section

open scoped BigOperators

namespace Cert.ReferenceIdeal.Layer

open Cert.ReferenceIdeal Cert.ReferenceIdeal.Read Idealize.ShloMosaic Idealize.ShloMosaic.ValueIdx Cert.SageMlp

/-- The operand indices of the three products and of the two repeated biases, at an entry given by its coordinates. -/
theorem lidx19 (a : Fin 50000) (k j : Fin 64) : lidx_main_v19 (ix2 a k) j = ix2 a j :=
  funext fun d => Fin.ext (by match d with | ⟨0, _⟩ => rfl | ⟨1, _⟩ => rfl)
theorem ridx19 (a : Fin 50000) (k j : Fin 64) : ridx_main_v19 (ix2 a k) j = ix2 j k :=
  funext fun d => Fin.ext (by match d with | ⟨0, _⟩ => rfl | ⟨1, _⟩ => rfl)
theorem lidx20 (a : Fin 50000) (k j : Fin 64) : lidx_main_v20 (ix2 a k) j = ix2 a j :=
  funext fun d => Fin.ext (by match d with | ⟨0, _⟩ => rfl | ⟨1, _⟩ => rfl)
theorem ridx20 (a : Fin 50000) (k j : Fin 64) : ridx_main_v20 (ix2 a k) j = ix2 j k :=
  funext fun d => Fin.ext (by match d with | ⟨0, _⟩ => rfl | ⟨1, _⟩ => rfl)
theorem lidx26 (a : Fin 50000) (q : Fin 16) (k : Fin 64) : lidx_main_v26 (ix2 a q) k = ix2 a k :=
  funext fun d => Fin.ext (by match d with | ⟨0, _⟩ => rfl | ⟨1, _⟩ => rfl)
theorem ridx26 (a : Fin 50000) (q : Fin 16) (k : Fin 64) : ridx_main_v26 (ix2 a q) k = ix2 k q :=
  funext fun d => Fin.ext (by match d with | ⟨0, _⟩ => rfl | ⟨1, _⟩ => rfl)
theorem idx_bias (a : Fin 50000) (k : Fin 64) : idx_main_v22 (idx_main_v23 (ix2 a k)) = ix1 k :=
  funext fun d => Fin.ext (by match d with | ⟨0, _⟩ => rfl)
theorem idx_bias_fc (a : Fin 50000) (q : Fin 16) : idx_main_v27 (idx_main_v28 (ix2 a q)) = ix1 q :=
  funext fun d => Fin.ext (by match d with | ⟨0, _⟩ => rfl)

/-- Entry `(a, k)` of the reference's hidden matrix is node `a`'s hidden row at `k`, over the reference's own
    neighbourhood mean. -/
theorem hidden_apply (x0 : (⟨S50000x64, .f32⟩ : BufTy).Contents (Elt Ideal)) (x1 x2 : (⟨S800000, .i32⟩ : BufTy).Contents (Elt Ideal))
    (x3 x4 : (⟨S64x64, .f32⟩ : BufTy).Contents (Elt Ideal)) (x5 : (⟨S64, .f32⟩ : BufTy).Contents (Elt Ideal)) (a : Fin 50000) (k : Fin 64) :
    val_main_v25 (F := Ideal) x0 x1 x2 x3 x4 x5 (ix2 a k)
      = hiddenRow (fun j => x0 (ix2 a j)) (fun j => val_main_v18 (F := Ideal) x0 x1 x2 (ix2 a j)) x3 x4 (fun r => x5 (ix1 r)) k := by
  rw [val_main_v25_apply, val_main_v24_apply, val_main_v21_apply, val_main_v19_apply, val_main_v20_apply, val_main_v23_apply,
    val_main_v22_apply, val_main_call0_v0_apply, val_main_call0_cst_apply, idx_bias]
  simp only [lidx19, ridx19, lidx20, ridx20]
  rfl

/-- The reference's result is the layer of the features and of the reference's own neighbourhood mean. -/
theorem result_eq (x0 : (⟨S50000x64, .f32⟩ : BufTy).Contents (Elt Ideal)) (x1 x2 : (⟨S800000, .i32⟩ : BufTy).Contents (Elt Ideal))
    (x3 x4 : (⟨S64x64, .f32⟩ : BufTy).Contents (Elt Ideal)) (x5 : (⟨S64, .f32⟩ : BufTy).Contents (Elt Ideal))
    (x6 : (⟨S64x16, .f32⟩ : BufTy).Contents (Elt Ideal)) (x7 : (⟨S16, .f32⟩ : BufTy).Contents (Elt Ideal)) :
    val_main_v29 (F := Ideal) x0 x1 x2 x3 x4 x5 x6 x7
      = layer x0 (val_main_v18 (F := Ideal) x0 x1 x2) x3 x4 (fun r => x5 (ix1 r)) x6 (fun r => x7 (ix1 r)) := by
  funext i
  obtain ⟨a, q, rfl⟩ : ∃ (a : Fin 50000) (q : Fin 16), i = ix2 a q := ⟨i 0, i 1, eq_ix2 i⟩
  rw [layer_ix2, val_main_v29_apply, val_main_v26_apply, val_main_v28_apply, val_main_v27_apply, idx_bias_fc]
  unfold outRow
  simp only [lidx26, ridx26, hidden_apply]
  rfl

end Cert.ReferenceIdeal.Layer

end
-- ==== Proof.lean ====
/-
  A mean-aggregating graph layer computed in blocks of rows, against the same layer computed on whole matrices.

  Both programs begin alike: from the features, the edges' sources and their destinations the host forms the
  neighbourhood mean of every node (the gathered source rows added into their destination rows, divided by the
  number of arriving edges or by one). They differ in the dense part,
  `max (x · Wself + mean · Wneigh + b, 0) · Wfc + bfc`. One program hands it to a kernel that walks over the nodes
  in 25 blocks of 2000 rows and, for each block, forms the products on its matrix unit from operands narrowed to a
  shorter number format; the other applies whole-matrix operations to all 50000 rows at once.

  On the extended reals a change of number format is the identity and each product is the plain sum over the
  contracted coordinate, so both programs compute, for node `a` and output column `q`, the same expression of row `a`
  of the features and of the neighbourhood mean; and the blocks tile the rows. No law that could fail at an infinity
  is used (the two sides are the same sums in the same grouping), so the finiteness of the inputs is never opened.
  The narrowing leaves nothing for the idealization to record, so the conjunct relating the kernel to its
  idealization is trivial; the three termination-and-unchanged-arguments conjuncts are the generated frame runs.
-/
import proofs.«143916_j26671746908236_1_alg».proof.Defs
import proofs.«143916_j26671746908236_1_alg».proof.Proof.Gen.Kernel
import proofs.«143916_j26671746908236_1_alg».proof.Proof.Gen.Kernel.Skeleton
import proofs.«143916_j26671746908236_1_alg».proof.Proof.Gen.Kernel.Launch
import proofs.«143916_j26671746908236_1_alg».proof.Proof.Gen.Kernel.Points
import proofs.«143916_j26671746908236_1_alg».proof.Proof.Gen.Kernel.Frame
import proofs.«143916_j26671746908236_1_alg».proof.Proof.Gen.KernelIdeal
import proofs.«143916_j26671746908236_1_alg».proof.Proof.Gen.KernelIdeal.Skeleton
import proofs.«143916_j26671746908236_1_alg».proof.Proof.Gen.KernelIdeal.Launch
import proofs.«143916_j26671746908236_1_alg».proof.Proof.Gen.KernelIdeal.Points
import proofs.«143916_j26671746908236_1_alg».proof.Proof.Gen.KernelIdeal.Frame
import proofs.«143916_j26671746908236_1_alg».proof.Proof.Gen.ReferenceIdeal
import proofs.«143916_j26671746908236_1_alg».proof.Proof.Gen.Pre_finite_inputs
import proofs.«143916_j26671746908236_1_alg».proof.Proof.Gen.KernelIdeal.Value
import proofs.«143916_j26671746908236_1_alg».proof.Proof.Gen.ReferenceIdeal.Run
import proofs.«143916_j26671746908236_1_alg».proof.Proof.Gen.ReferenceIdeal.Read
import proofs.«143916_j26671746908236_1_alg».proof.Proof.KernelRun
import proofs.«143916_j26671746908236_1_alg».proof.Proof.RefLayer
import Idealize.ShloMosaic.Adequacy
import Idealize.ShloMosaic.Init

noncomputable section

namespace Cert.Proof

open Idealize.ShloMosaic Idealize.ShloMosaic.TcCoe Idealize.SL.Sem

/-- The two programs form the neighbourhood mean by the same host operations with the same dimension numbers. -/
theorem mean_eq (x0 : (⟨Cert.ReferenceIdeal.S50000x64, .f32⟩ : BufTy).Contents (Elt Ideal))
    (x1 x2 : (⟨Cert.ReferenceIdeal.S800000, .i32⟩ : BufTy).Contents (Elt Ideal)) :
    Cert.ReferenceIdeal.Read.val_main_v18 (F := Ideal) x0 x1 x2 = Cert.KernelIdeal.Prefix.hostMean (F := Ideal) x0 x1 x2 := rfl

theorem frame_kernel : Cert.frame_Kernel := fun m ρ _ => Cert.Kernel.Gen.frame m ρ
theorem frame_kernel_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the layer of the features and their
    neighbourhood mean in the result array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v29_eq, Cert.ReferenceIdeal.Layer.result_eq, mean_eq, a0, a1, a2, a3, a4, a5, a6, a7]
  unfold Cert.KernelIdeal.Whole.result
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
